-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2x262144 : Shape := ⟨3, ![16, 2, 262144]⟩
abbrev S_ : Shape := ⟨0, ![]⟩

class Facts : Prop where
  bcast_S_S16x2x262144 : S_.BroadcastsInDim S16x2x262144 (![] : Fin 0 → Fin S16x2x262144.rank)
  reducesTo_S16x2x262144_S_d0_1_2 : S16x2x262144.ReducesTo [0, 1, 2] S_
  h_S_ : 0 < S_.numel

variable [Facts]

def fn {F : FTy → Type} [FloatOps F] (main_arg0 : FVec F S16x2x262144 .f32) : IVec S_ 1 :=
  let main_v0 : FVec F S16x2x262144 .f32 := Host.absf main_arg0
  let main_cst : FVec F S_ .f32 := constant S_ .f32 0x7F800000#32
  let main_v1 : FVec F S16x2x262144 .f32 := broadcastInDim S16x2x262144 ![] bcast_S_S16x2x262144 main_cst
  let main_v2 : IVec S16x2x262144 1 := cmpf .olt main_v0 main_v1
  let main_c : IVec S_ 1 := constantI S_ 1 1#1
  let main_v3 : IVec S_ 1 := (fun x v => Host.reduce IntOp.andi x v reducesTo_S16x2x262144_S_d0_1_2 h_S_) main_v2 main_c
  main_v3
-- ==== Kernel.lean ====
abbrev S16x2x262144 : Shape := ⟨3, ![16, 2, 262144]⟩
abbrev S32x1024x256 : Shape := ⟨3, ![32, 1024, 256]⟩
abbrev S32x1024x1021 : Shape := ⟨3, ![32, 1024, 1021]⟩
abbrev S2x1024x256 : Shape := ⟨3, ![2, 1024, 256]⟩
abbrev S2x1024x1021 : Shape := ⟨3, ![2, 1024, 1021]⟩
abbrev S1x1024x256 : Shape := ⟨3, ![1, 1024, 256]⟩
abbrev S1024x256 : Shape := ⟨2, ![1024, 256]⟩
abbrev S256x1024 : Shape := ⟨2, ![256, 1024]⟩
abbrev S256x1021 : Shape := ⟨2, ![256, 1021]⟩
abbrev S1x256x1021 : Shape := ⟨3, ![1, 256, 1021]⟩
abbrev S16x2x1024x1021 : Shape := ⟨4, ![16, 2, 1024, 1021]⟩

abbrev nBuf : Space → Nat
  | .hbm => 4
  | .vmem => 4
  | .smem => 0
  | _ => 0

abbrev bufTy : (tb : Table) → Fin (tcTables nBuf tb) → BufTy
  | .hbm, ⟨0, _⟩ => ⟨S16x2x262144, .f32⟩
  | .hbm, ⟨1, _⟩ => ⟨S32x1024x256, .f32⟩
  | .hbm, ⟨2, _⟩ => ⟨S32x1024x1021, .f32⟩
  | .hbm, ⟨3, _⟩ => ⟨S16x2x1024x1021, .f32⟩
  | .local _ .vmem, ⟨0, _⟩ => ⟨S2x1024x256, .f32⟩
  | .local _ .vmem, ⟨1, _⟩ => ⟨S2x1024x256, .f32⟩
  | .local _ .vmem, ⟨2, _⟩ => ⟨S2x1024x1021, .f32⟩
  | .local _ .vmem, ⟨3, _⟩ => ⟨S2x1024x1021, .f32⟩
  | _, _ => ⟨S16x2x262144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x1024x1021 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S16x2x262144_S32x1024x256 : S16x2x262144.ShapeCasts S32x1024x256
  inb_S2x1024x256_S1x1024x256_0_0_0 : ∀ a, (![0, 0, 0] : Fin 3 → Nat) a + S1x1024x256.size a ≤ S2x1024x256.size a
  h_S1x1024x256 : 0 < S1x1024x256.numel
  shapeCasts_S1x1024x256_S1024x256 : S1x1024x256.ShapeCasts S1024x256
  transposes_S1024x256_p1_0_S256x1024 : S1024x256.Transposes [1, 0] S256x1024
  slices_S256x1024_o0_0_S256x1021 : S256x1024.Slices ![0, 0] S256x1021
  inb_S2x1024x1021_S1x256x1021_0_0_0 : ∀ a, (![0, 0, 0] : Fin 3 → Nat) a + S1x256x1021.size a ≤ S2x1024x1021.size a
  h_S1x256x1021 : 0 < S1x256x1021.numel
  shapeCasts_S1x256x1021_S256x1021 : S1x256x1021.ShapeCasts S256x1021
  shapeCasts_S256x1021_S1x256x1021 : S256x1021.ShapeCasts S1x256x1021
  slices_S256x1024_o0_1_S256x1021 : S256x1024.Slices ![0, 1] S256x1021
  inb_S2x1024x1021_S1x256x1021_0_256_0 : ∀ a, (![0, 256, 0] : Fin 3 → Nat) a + S1x256x1021.size a ≤ S2x1024x1021.size a
  slices_S256x1024_o0_2_S256x1021 : S256x1024.Slices ![0, 2] S256x1021
  inb_S2x1024x1021_S1x256x1021_0_512_0 : ∀ a, (![0, 512, 0] : Fin 3 → Nat) a + S1x256x1021.size a ≤ S2x1024x1021.size a
  slices_S256x1024_o0_3_S256x1021 : S256x1024.Slices ![0, 3] S256x1021
  inb_S2x1024x1021_S1x256x1021_0_768_0 : ∀ a, (![0, 768, 0] : Fin 3 → Nat) a + S1x256x1021.size a ≤ S2x1024x1021.size a
  inb_S2x1024x256_S1x1024x256_1_0_0 : ∀ a, (![1, 0, 0] : Fin 3 → Nat) a + S1x1024x256.size a ≤ S2x1024x256.size a
  inb_S2x1024x1021_S1x256x1021_1_0_0 : ∀ a, (![1, 0, 0] : Fin 3 → Nat) a + S1x256x1021.size a ≤ S2x1024x1021.size a
  inb_S2x1024x1021_S1x256x1021_1_256_0 : ∀ a, (![1, 256, 0] : Fin 3 → Nat) a + S1x256x1021.size a ≤ S2x1024x1021.size a
  inb_S2x1024x1021_S1x256x1021_1_512_0 : ∀ a, (![1, 512, 0] : Fin 3 → Nat) a + S1x256x1021.size a ≤ S2x1024x1021.size a
  inb_S2x1024x1021_S1x256x1021_1_768_0 : ∀ a, (![1, 768, 0] : Fin 3 → Nat) a + S1x256x1021.size a ≤ S2x1024x1021.size a
  shapeCasts_S32x1024x1021_S16x2x1024x1021 : S32x1024x1021.ShapeCasts S16x2x1024x1021
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x1024x256.size a ≤ S32x1024x256.size a
  hwx0_0 : ∀ i : grid0.Coords, EltTy.bits .f32 = 32 ∨ (Rect.block (s := S32x1024x256) S2x1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x1024x1021.size a ≤ S32x1024x1021.size a
  hwx0_1 : ∀ i : grid0.Coords, EltTy.bits .f32 = 32 ∨ (Rect.block (s := S32x1024x1021) S2x1024x1021.size (cc0_transform_1 i) (hinb0_1 i)).WholeWords (EltTy.packing .f32)

variable [Facts₀]

abbrev win0_0 : Pipeline.Window sig grid0 :=
  Pipeline.Window.ofSpec (Memref.whole main_v0) S2x1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2x1024x1021.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16x2x262144 : Shape := ⟨3, ![16, 2, 262144]⟩
abbrev S1021 : Shape := ⟨1, ![1021]⟩
abbrev S1021x1 : Shape := ⟨2, ![1021, 1]⟩
abbrev S_ : Shape := ⟨0, ![]⟩
abbrev S1024 : Shape := ⟨1, ![1024]⟩
abbrev S1x1024 : Shape := ⟨2, ![1, 1024]⟩
abbrev S1021x1024 : Shape := ⟨2, ![1021, 1024]⟩
abbrev S1021x1024x1 : Shape := ⟨3, ![1021, 1024, 1]⟩
abbrev S16x2x1021x1024 : Shape := ⟨4, ![16, 2, 1021, 1024]⟩
abbrev S16x2x1024x1021 : Shape := ⟨4, ![16, 2, 1024, 1021]⟩

abbrev nBuf : Space → Nat
  | .hbm => 21
  | .vmem => 0
  | .smem => 0
  | _ => 0

abbrev bufTy : (tb : Table) → Fin (tcTables nBuf tb) → BufTy
  | .hbm, ⟨0, _⟩ => ⟨S16x2x262144, .f32⟩
  | .hbm, ⟨1, _⟩ => ⟨S1021, .i32⟩
  | .hbm, ⟨2, _⟩ => ⟨S1021x1, .i32⟩
  | .hbm, ⟨3, _⟩ => ⟨S_, .i32⟩
  | .hbm, ⟨4, _⟩ => ⟨S1021x1, .i32⟩
  | .hbm, ⟨5, _⟩ => ⟨S1021x1, .i32⟩
  | .hbm, ⟨6, _⟩ => ⟨S1024, .i32⟩
  | .hbm, ⟨7, _⟩ => ⟨S1x1024, .i32⟩
  | .hbm, ⟨8, _⟩ => ⟨S1021x1024, .i32⟩
  | .hbm, ⟨9, _⟩ => ⟨S1021x1024, .i32⟩
  | .hbm, ⟨10, _⟩ => ⟨S1021x1024, .i32⟩
  | .hbm, ⟨11, _⟩ => ⟨S_, .i32⟩
  | .hbm, ⟨12, _⟩ => ⟨S1021x1024, .i32⟩
  | .hbm, ⟨13, _⟩ => ⟨S1021x1024, .i1⟩
  | .hbm, ⟨14, _⟩ => ⟨S_, .i32⟩
  | .hbm, ⟨15, _⟩ => ⟨S1021x1024, .i32⟩
  | .hbm, ⟨16, _⟩ => ⟨S1021x1024, .i32⟩
  | .hbm, ⟨17, _⟩ => ⟨S1021x1024, .i32⟩
  | .hbm, ⟨18, _⟩ => ⟨S1021x1024x1, .i32⟩
  | .hbm, ⟨19, _⟩ => ⟨S16x2x1021x1024, .f32⟩
  | .hbm, ⟨20, _⟩ => ⟨S16x2x1024x1021, .f32⟩
  | _, _ => ⟨S16x2x262144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c_0 : Ref sig .tc := ⟨.hbm, 11, rfl⟩
abbrev main_v9 : Ref sig .tc := ⟨.hbm, 12, rfl⟩
abbrev main_v10 : Ref sig .tc := ⟨.hbm, 13, rfl⟩
abbrev main_c_1 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩

abbrev nD : Nat := 1
abbrev τ : Topo := Topo.v7x

variable {F : FTy → Type} [FloatOps F]

class Facts₀ : Prop where
  bcast_S1021_S1021x1_0 : S1021.BroadcastsInDim S1021x1 (![0] : Fin 1 → Fin S1021x1.rank)
  bcast_S_S1021x1 : S_.BroadcastsInDim S1021x1 (![] : Fin 0 → Fin S1021x1.rank)
  bcast_S1024_S1x1024_1 : S1024.BroadcastsInDim S1x1024 (![1] : Fin 1 → Fin S1x1024.rank)
  bcast_S1021x1_S1021x1024_0_1 : S1021x1.BroadcastsInDim S1021x1024 (![0, 1] : Fin 2 → Fin S1021x1024.rank)
  bcast_S1x1024_S1021x1024_0_1 : S1x1024.BroadcastsInDim S1021x1024 (![0, 1] : Fin 2 → Fin S1021x1024.rank)
  bcast_S_S1021x1024 : S_.BroadcastsInDim S1021x1024 (![] : Fin 0 → Fin S1021x1024.rank)
  bcast_S1021x1024_S1021x1024x1_0_1 : S1021x1024.BroadcastsInDim S1021x1024x1 (![0, 1] : Fin 2 → Fin S1021x1024x1.rank)
  transposes_S16x2x1021x1024_S16x2x1024x1021_0_1_3_2 : S16x2x1021x1024.Transposes [0, 1, 3, 2] S16x2x1024x1021
  gather_S16x2x262144_S1021x1024x1_S16x2x1021x1024_01_2_n_n_2_2_1621_wf : GatherDims.WF S16x2x262144 S1021x1024x1 S16x2x1021x1024 [0, 1] [2] [] [2] [] 2 ![16, 2, 1]

variable [Facts₀]

def gather_S16x2x262144_S1021x1024x1_S16x2x1021x1024_01_2_n_n_2_2_1621 : GatherDims S16x2x262144 S1021x1024x1 S16x2x1021x1024 where
  offsetDims := [0, 1]
  collapsedSliceDims := [2]
  operandBatchingDims := []
  startIndicesBatchingDims := []
  startIndexMap := [2]
  indexVectorDim := 2
  sliceSizes := ![16, 2, 1]
  wf := gather_S16x2x262144_S1021x1024x1_S16x2x1021x1024_01_2_n_n_2_2_1621_wf

class Facts : Prop extends Facts₀ where

variable [Facts]
-- ==== Proof.BlockValue.lean ====
/-
  What the kernel body leaves in its output block, as ONE function of its input block.

  The input block holds two rows `s` of the signal, each cut into 1024 hops of 256 samples: `x0 (s, n, h)` is sample
  `h` of hop `n`. For each row the body transposes the hops, `(n, h) ↦ (h, n)`, and for `j = 0, 1, 2, 3` stores the strip
  of columns `j … j + 1020` at rows `256 j … 256 j + 255` of the output block. So the output block at `(s, w, f)` — window
  position `w`, frame `f` — holds, with `w = 256 j + h`, the transposed row at `(h, f + j)`, that is
  `x0 (s, f + w / 256, w % 256)`: sample `w % 256` of hop `f + w / 256`, which is sample `w` counted from the start of
  hop `f`. The eight stores (four strips for each of the two rows) tile the block, and each is that one function
  restricted to its rectangle; so their canon is that function.
-/
import proofs.«166856_j41798621724893_1_alg».proof.Proof.Gen.KernelIdeal.Frame
import Idealize.ShloMosaic.Lib.Pipeline.Value
import Idealize.ShloMosaic.Lib.ValueIdx

noncomputable section

namespace Cert.KernelIdeal.Block

open Cert.KernelIdeal Cert.KernelIdeal.Gen Idealize.ShloMosaic Idealize.ShloMosaic.ValueIdx

variable {α : Type}

/-- One row's strip `j` read at `(0, h, f)`: the unit axis added back, the slice at column offset `j`, the transpose and
    the unit axis dropped compose to the row at hop `f + j`, sample `h`. -/
theorem strip_apply (j : Nat) (hj : j ≤ 3) (v : S1x1024x256.Idx → α)
    (hc1 : S1x1024x256.ShapeCasts S1024x256) (ht : S1024x256.Transposes [1, 0] S256x1024)
    (hs : S256x1024.Slices ![0, j] S256x1021) (hc2 : S256x1021.ShapeCasts S1x256x1021)
    (x : S1x256x1021.Idx) :
    shapeCast S1x256x1021
        (extractStridedSlice S256x1021 ![0, j] (transpose S256x1024 [1, 0] (shapeCast S1024x256 v hc1) ht) hs) hc2 x
      = v (ix3 (⟨0, Nat.one_pos⟩ : Fin 1)
          (⟨(x 2).val + j, by have : (x 2).val < 1021 := (x 2).isLt; omega⟩ : Fin 1024)
          (⟨(x 1).val, (x 1).isLt⟩ : Fin 256)) := by
  have h0 : (x 0).val < 1 := (x 0).isLt
  have h1 : (x 1).val < 256 := (x 1).isLt
  have h2 : (x 2).val < 1021 := (x 2).isLt
  -- the unit axis added: (0, h, f) of [1, 256, 1021] is (h, f) of [256, 1021]
  refine (shapeCast_apply _ hc2 x (ix2 (⟨(x 1).val, h1⟩ : Fin 256) (⟨(x 2).val, h2⟩ : Fin 1021)) (by
      rw [Shape.rowMajor_val_two, Shape.rowMajor_val_three]
      show (x 1).val * 1021 + (x 2).val = ((x 0).val * 256 + (x 1).val) * 1021 + (x 2).val
      omega)).trans ?_
  -- the slice at (h, f) is the transposed row at (h, f + j)
  refine (extractStridedSlice_apply ![0, j] _ hs _
      (ix2 (⟨(x 1).val, h1⟩ : Fin 256) (⟨(x 2).val + j, by omega⟩ : Fin 1024)) (fun a => match a with
        | ⟨0, _⟩ => by show (x 1).val = 0 + (x 1).val; omega
        | ⟨1, _⟩ => by show (x 2).val + j = j + (x 2).val; omega)).trans ?_
  -- the transpose at (h, n) is the row at (n, h)
  refine (transpose_apply [1, 0] _ ht _
      (ix2 (⟨(x 2).val + j, by omega⟩ : Fin 1024) (⟨(x 1).val, h1⟩ : Fin 256)) (fun b => match b with
        | ⟨0, _⟩ => rfl
        | ⟨1, _⟩ => rfl)).trans ?_
  -- the unit axis dropped: (n, h) of [1024, 256] is (0, n, h) of [1, 1024, 256]
  exact shapeCast_apply v hc1 _ _ (by
      rw [Shape.rowMajor_val_three, Shape.rowMajor_val_two]
      show (0 * 1024 + ((x 2).val + j)) * 256 + (x 1).val = ((x 2).val + j) * 256 + (x 1).val
      omega)

variable {F : FTy → Type} [FloatOps F]

/-- THE OUTPUT BLOCK as a function of the input block: at row `s`, window position `w` and frame `f` it is sample
    `w % 256` of hop `f + w / 256` of row `s`. -/
def blockFrames (x0 : Vec F S2x1024x256 .f32) : Vec F S2x1024x1021 .f32 := fun y =>
  x0 (ix3 (⟨(y 0).val, (y 0).isLt⟩ : Fin 2)
    (⟨(y 2).val + (y 1).val / 256, by
      have h1 : (y 1).val < 1024 := (y 1).isLt
      have h2 : (y 2).val < 1021 := (y 2).isLt
      omega⟩ : Fin 1024)
    (⟨(y 1).val % 256, Nat.mod_lt _ (by decide)⟩ : Fin 256))

/-- The store of strip `j` of row `s`, through the rectangle at rows `256 j …` of row `s` of the output block, writes
    `blockFrames` restricted to that rectangle: at the rectangle's `(0, h, f)` the block index is `(s, 256 j + h, f)`, whose
    hop is `f + (256 j + h) / 256 = f + j` and whose sample is `(256 j + h) % 256 = h`. -/
theorem piece_apply (s j offW : Nat) (hs1 : s < 2) (hj : j ≤ 3) (hW : offW = 256 * j) (x0 : Vec F S2x1024x256 .f32)
    (inbL : ∀ a, (![s, 0, 0] : Fin 3 → Nat) a + S1x1024x256.size a ≤ S2x1024x256.size a)
    (inbS : ∀ a, (![s, offW, 0] : Fin 3 → Nat) a + S1x256x1021.size a ≤ S2x1024x1021.size a)
    (hc1 : S1x1024x256.ShapeCasts S1024x256) (ht : S1024x256.Transposes [1, 0] S256x1024)
    (hs : S256x1024.Slices ![0, j] S256x1021) (hc2 : S256x1021.ShapeCasts S1x256x1021)
    (x : S1x256x1021.Idx) :
    shapeCast S1x256x1021
        (extractStridedSlice S256x1021 ![0, j] (transpose S256x1024 [1, 0]
          (shapeCast S1024x256
            (View.ld x0 (Rect.unit (s := S2x1024x256) ![s, 0, 0] S1x1024x256.size inbL) : S1x1024x256.Idx → Elt F .f32)
            hc1) ht) hs) hc2 x
      = blockFrames x0 ((Rect.unit (s := S2x1024x1021) ![s, offW, 0] S1x256x1021.size inbS).emb x) := by
  have h0 : (x 0).val < 1 := (x 0).isLt
  have h1 : (x 1).val < 256 := (x 1).isLt
  have h2 : (x 2).val < 1021 := (x 2).isLt
  refine (strip_apply j hj _ hc1 ht hs hc2 x).trans ?_
  unfold blockFrames
  show x0 _ = x0 _
  congr 1; funext a; apply Fin.ext
  match a with
  | ⟨0, _⟩ => show s + 1 * 0 = s + 1 * (x 0).val; omega
  | ⟨1, _⟩ => show 0 + 1 * ((x 2).val + j) = (0 + 1 * (x 2).val) + (offW + 1 * (x 1).val) / 256; omega
  | ⟨2, _⟩ => show 0 + 1 * (x 1).val = (offW + 1 * (x 1).val) % 256; omega

/-- WHAT THE BODY LEAVES in the output block is `blockFrames` of the input block: the eight stores tile the block and each
    writes `blockFrames` on its rectangle. -/
theorem out_eq (x0 : Vec F S2x1024x256 .f32) : out0_1 x0 = blockFrames x0 := by
  funext y
  unfold out0_1
  refine View.canon_apply_of_pieces (blockFrames x0) _ ?_ y (cover0_1 _ _ _ _ _ _ _ _ y)
  intro pc hpc x
  rcases List.mem_cons.mp hpc with rfl | hpc
  · show k0_pay2 (k0_pay8 (View.ld x0 r0_5)) x = blockFrames x0 (r0_9.emb x)
    unfold k0_pay2 k0_pay8
    exact piece_apply 1 3 768 (by decide) (by decide) rfl x0 _ _ _ _ _ _ x
  rcases List.mem_cons.mp hpc with rfl | hpc
  · show k0_pay1 (k0_pay8 (View.ld x0 r0_5)) x = blockFrames x0 (r0_8.emb x)
    unfold k0_pay1 k0_pay8
    exact piece_apply 1 2 512 (by decide) (by decide) rfl x0 _ _ _ _ _ _ x
  rcases List.mem_cons.mp hpc with rfl | hpc
  · show k0_pay10 (View.ld x0 r0_5) x = blockFrames x0 (r0_7.emb x)
    unfold k0_pay10 k0_pay8
    exact piece_apply 1 1 256 (by decide) (by decide) rfl x0 _ _ _ _ _ _ x
  rcases List.mem_cons.mp hpc with rfl | hpc
  · show k0_pay9 (View.ld x0 r0_5) x = blockFrames x0 (r0_6.emb x)
    unfold k0_pay9 k0_pay8
    exact piece_apply 1 0 0 (by decide) (by decide) rfl x0 _ _ _ _ _ _ x
  rcases List.mem_cons.mp hpc with rfl | hpc
  · show k0_pay7 (View.ld x0 r0_0) x = blockFrames x0 (r0_4.emb x)
    unfold k0_pay7 k0_pay3
    exact piece_apply 0 3 768 (by decide) (by decide) rfl x0 _ _ _ _ _ _ x
  rcases List.mem_cons.mp hpc with rfl | hpc
  · show k0_pay6 (View.ld x0 r0_0) x = blockFrames x0 (r0_3.emb x)
    unfold k0_pay6 k0_pay3
    exact piece_apply 0 2 512 (by decide) (by decide) rfl x0 _ _ _ _ _ _ x
  rcases List.mem_cons.mp hpc with rfl | hpc
  · show k0_pay5 (View.ld x0 r0_0) x = blockFrames x0 (r0_2.emb x)
    unfold k0_pay5 k0_pay3
    exact piece_apply 0 1 256 (by decide) (by decide) rfl x0 _ _ _ _ _ _ x
  rcases List.mem_cons.mp hpc with rfl | hpc
  · show k0_pay4 (View.ld x0 r0_0) x = blockFrames x0 (r0_1.emb x)
    unfold k0_pay4 k0_pay3
    exact piece_apply 0 0 0 (by decide) (by decide) rfl x0 _ _ _ _ _ _ x
  exact absurd hpc List.not_mem_nil

end Cert.KernelIdeal.Block

end
-- ==== Proof.ArrayValue.lean ====
/-
  The kernel's output array after the whole grid, as ONE function of the array its input window stages.

  The input array `v0 : [32, 1024, 256]` holds 32 signal rows cut into 1024 hops of 256 samples; the output array
  `[32, 1024, 1021]` at `(q, w, f)` — row `q`, window position `w`, frame `f` — is to hold sample `w % 256` of hop
  `f + w / 256` of row `q` (`arrayFrames`). Grid point `t` stages rows `2t, 2t + 1` of both arrays whole, so the block
  function of the body (`Block.blockFrames`), which never mixes rows, is `arrayFrames` restricted to the point's block;
  the 16 blocks cover the 32 rows, so the array ends holding `arrayFrames` of the staged array.
-/
import proofs.«166856_j41798621724893_1_alg».proof.Proof.BlockValue

noncomputable section

namespace Cert.KernelIdeal.Block

open Cert.KernelIdeal Cert.KernelIdeal.Gen Idealize.ShloMosaic Idealize.ShloMosaic.TcCoe Idealize.SL.Sem
open Idealize.ShloMosaic.ValueIdx
open Idealize.ShloMosaic.Pipeline (Dat)

variable {F : FTy → Type} [FloatOps F]
variable (m : (ℓ : Loc nD τ sig) → Buf (Elt F) ℓ) (ρ : Dev nD → PrngReg)

/-- THE OUTPUT ARRAY as a function of the staged input array: at row `q`, window position `w`, frame `f`, sample
    `w % 256` of hop `f + w / 256` of row `q`. -/
def arrayFrames {α : Type} (v0 : S32x1024x256.Idx → α) : S32x1024x1021.Idx → α := fun i =>
  v0 (ix3 (⟨(i 0).val, (i 0).isLt⟩ : Fin 32)
    (⟨(i 2).val + (i 1).val / 256, by
      have h1 : (i 1).val < 1024 := (i 1).isLt
      have h2 : (i 2).val < 1021 := (i 2).isLt
      omega⟩ : Fin 1024)
    (⟨(i 1).val % 256, Nat.mod_lt _ (by decide)⟩ : Fin 256))

/-- The printed index maps, decided over the 16 grid points: both windows take the same pair of rows and are whole on
    the other two axes. -/
theorem index_facts : ∀ t : Fin cfg0.N, win0_0.index t (0 : Fin 3) = win0_1.index t (0 : Fin 3)
    ∧ win0_0.index t (1 : Fin 3) = 0 ∧ win0_0.index t (2 : Fin 3) = 0
    ∧ win0_1.index t (1 : Fin 3) = 0 ∧ win0_1.index t (2 : Fin 3) = 0 :=
  (by decide +kernel : ∀ t : Fin grid0.N, _)

/-- Every pair of rows is some point's. -/
theorem index_onto : ∀ q : Fin 16, ∃ t : Fin cfg0.N, win0_1.index t = ![q.val, 0, 0] :=
  (by decide +kernel : ∀ q : Fin 16, ∃ t : Fin grid0.N, win0_1.index t = ![q.val, 0, 0])

/-- WHAT POINT `t` WRITES BACK is block `t` of `arrayFrames` of the staged input array. -/
theorem flushed_eq (c : Dev nD) (t : Fin cfg0.N) :
    (dats m 0 c).flushed 1 t = ((cfg0.win 1).blk t).view.read (Elt F) (arrayFrames (V m c main_v0)) := by
  show (cfg0.win 1).cut (grid0.coords t) ((dats m 0 c).after 1 t) = _
  rw [after0_1, out_eq]
  obtain ⟨e0, e1, e2, e3, e4⟩ := index_facts t
  funext y
  have hy0 : (y 0).val < 2 := (y 0).isLt
  have hy1 : (y 1).val < 1024 := (y 1).isLt
  have hy2 : (y 2).val < 1021 := (y 2).isLt
  show V m c main_v0 (((cfg0.win 0).blk t).view.emb
      (ix3 (⟨(y 0).val, hy0⟩ : Fin 2) (⟨(y 2).val + (y 1).val / 256, by omega⟩ : Fin 1024)
        (⟨(y 1).val % 256, Nat.mod_lt _ (by decide)⟩ : Fin 256)))
    = arrayFrames (V m c main_v0) (((cfg0.win 1).blk t).view.emb y)
  unfold arrayFrames
  congr 1; funext a; apply Fin.ext
  match a with
  | ⟨0, _⟩ =>
    show win0_0.index t (0 : Fin 3) * 2 + 1 * (y 0).val = win0_1.index t (0 : Fin 3) * 2 + 1 * (y 0).val
    omega
  | ⟨1, _⟩ =>
    show win0_0.index t (1 : Fin 3) * 1024 + 1 * ((y 2).val + (y 1).val / 256)
      = (win0_1.index t (2 : Fin 3) * 1021 + 1 * (y 2).val) + (win0_1.index t (1 : Fin 3) * 1024 + 1 * (y 1).val) / 256
    omega
  | ⟨2, _⟩ =>
    show win0_0.index t (2 : Fin 3) * 256 + 1 * ((y 1).val % 256) = (win0_1.index t (1 : Fin 3) * 1024 + 1 * (y 1).val) % 256
    omega

/-- An index of the output array is in point `t`'s block iff each coordinate is in the block's range on its axis. -/
theorem mem_blk (t : Fin cfg0.N) (i : S32x1024x1021.Idx) :
    i ∈ ((cfg0.win 1).blk t).view.set ↔ ∀ a : Fin 3, win0_1.index t a * S2x1024x1021.size a ≤ (i a).val
      ∧ (i a).val < win0_1.index t a * S2x1024x1021.size a + S2x1024x1021.size a := by
  show i ∈ ((View.whole main_v1).slice (win0_1.rect t)).set ↔ _
  rw [View.set_slice_whole, Rect.mem_set_unit]
  exact Iff.rfl

/-- Every index of the output array is in some point's block: row `q` is in the block of point `q / 2`. -/
theorem covered (i : S32x1024x1021.Idx) :
    ∃ t : Fin cfg0.N, (cfg0.win 1).flush t = true ∧ i ∈ ((cfg0.win 1).blk t).view.set := by
  have hi0 : (i 0).val < 32 := (i 0).isLt
  have hi1 : (i 1).val < 1024 := (i 1).isLt
  have hi2 : (i 2).val < 1021 := (i 2).isLt
  obtain ⟨t, ht⟩ := index_onto ⟨(i 0).val / 2, by omega⟩
  have q0 : win0_1.index t (0 : Fin 3) = (i 0).val / 2 := congrFun ht 0
  have q1 : win0_1.index t (1 : Fin 3) = 0 := congrFun ht 1
  have q2 : win0_1.index t (2 : Fin 3) = 0 := congrFun ht 2
  refine ⟨t, flush0_1 t, ?_⟩
  rw [mem_blk]
  intro a
  match a with
  | ⟨0, _⟩ =>
    show win0_1.index t (0 : Fin 3) * 2 ≤ (i 0).val ∧ (i 0).val < win0_1.index t (0 : Fin 3) * 2 + 2
    omega
  | ⟨1, _⟩ =>
    show win0_1.index t (1 : Fin 3) * 1024 ≤ (i 1).val ∧ (i 1).val < win0_1.index t (1 : Fin 3) * 1024 + 1024
    omega
  | ⟨2, _⟩ =>
    show win0_1.index t (2 : Fin 3) * 1021 ≤ (i 2).val ∧ (i 2).val < win0_1.index t (2 : Fin 3) * 1021 + 1021
    omega

/-- THE OUTPUT ARRAY after the grid is `arrayFrames` of the staged input array. -/
theorem final (c : Dev nD) : (dats m 0 c).arrAt 1 cfg0.N = arrayFrames (V m c main_v0) :=
  (dats m 0 c).arrAt_eq_of_cover 1 (arrayFrames (V m c main_v0)) (fun t _ => flushed_eq m c t) covered

end Cert.KernelIdeal.Block

end
-- ==== Proof.Framing.lean ====
/-
  THE SPECIFICATION: strided framing of a signal.

  A signal `X : [16, 2, 262144]` (batch, channel, time) is cut into 1021 overlapping frames of 1024 samples, frame `f`
  starting at sample `256 f` (window 1024, hop 256; the last frame ends at sample `256 · 1020 + 1023 = 262143`, the
  signal's last). The result is laid out `[16, 2, 1024, 1021]`: at `(b, c, w, f)` it holds sample `256 f + w` of the
  signal `(b, c)` — position `w` of frame `f`. No arithmetic is done on the samples, so the element type is arbitrary.
-/
import Idealize.ShloMosaic.PureOps
import Idealize.ShloMosaic.Lib.ValueIdx

noncomputable section

namespace Cert.Framing

open Idealize.ShloMosaic Idealize.ShloMosaic.ValueIdx

/-- Position `w` of frame `f` is a sample of the signal. -/
theorem sample_lt {w f : Nat} (hw : w < 1024) (hf : f < 1021) : f * 256 + w < 262144 := by omega

/-- The framed signal: at `(b, c, w, f)`, sample `256 f + w` of signal `(b, c)`. -/
def frames {α : Type} (X : (⟨3, ![16, 2, 262144]⟩ : Shape).Idx → α) : (⟨4, ![16, 2, 1024, 1021]⟩ : Shape).Idx → α :=
  fun i => X (ix3 (⟨(i 0).val, (i 0).isLt⟩ : Fin 16) (⟨(i 1).val, (i 1).isLt⟩ : Fin 2)
    (⟨(i 3).val * 256 + (i 2).val, sample_lt (i 2).isLt (i 3).isLt⟩ : Fin 262144))

end Cert.Framing

end
-- ==== Proof.KernelValue.lean ====
/-
  The kernel's run, read: its result is the framed signal.

  Around the grid the program reshapes. Before it, the signal `[16, 2, 262144]` is viewed as 32 rows of 1024 hops of
  256 samples: row `2 b + c`, hop `n`, sample `h` is sample `256 n + h` of signal `(b, c)`. After it, the output array
  `[32, 1024, 1021]` is viewed as `[16, 2, 1024, 1021]`: `(b, c, w, f)` is row `2 b + c` at `(w, f)`. Between the two
  the grid leaves, at row `q`, `(w, f)`, sample `w % 256` of hop `f + w / 256` (`Block.arrayFrames`), which is sample
  `256 (f + w / 256) + w % 256 = 256 f + w` of the signal: the specification `Framing.frames`.
-/
import proofs.«166856_j41798621724893_1_alg».proof.Proof.ArrayValue
import proofs.«166856_j41798621724893_1_alg».proof.Proof.Framing
import Idealize.ShloMosaic.Lib.StableHlo.Run

noncomputable section

namespace Cert.KernelIdeal.Block

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable {F : FTy → Type} [FloatOps F]
variable (m : (ℓ : Loc nD τ sig) → Buf (Elt F) ℓ) (ρ : Dev nD → PrngReg)

/-- THE TWO VIEWS AROUND THE GRID'S FUNCTION: viewing the signal as rows of hops, taking sample `w % 256` of hop
    `f + w / 256`, and viewing the rows as (batch, channel) again, is the framed signal — row-major positions agree
    because `256 (f + w / 256) + w % 256 = 256 f + w`. -/
theorem frames_of_views {α : Type} (X : S16x2x262144.Idx → α) (h1 : S16x2x262144.ShapeCasts S32x1024x256)
    (h2 : S32x1024x1021.ShapeCasts S16x2x1024x1021) :
    shapeCast S16x2x1024x1021 (arrayFrames (shapeCast S32x1024x256 X h1)) h2 = Cert.Framing.frames X := by
  funext i
  have hi0 : (i 0).val < 16 := (i 0).isLt
  have hi1 : (i 1).val < 2 := (i 1).isLt
  have hi2 : (i 2).val < 1024 := (i 2).isLt
  have hi3 : (i 3).val < 1021 := (i 3).isLt
  refine (shapeCast_apply _ h2 i (ix3 (⟨(i 0).val * 2 + (i 1).val, by omega⟩ : Fin 32) (⟨(i 2).val, hi2⟩ : Fin 1024)
      (⟨(i 3).val, hi3⟩ : Fin 1021)) (by
    rw [Shape.rowMajor_val_three, Shape.rowMajor_val_four]
    show (((i 0).val * 2 + (i 1).val) * 1024 + (i 2).val) * 1021 + (i 3).val
      = (((i 0).val * 2 + (i 1).val) * 1024 + (i 2).val) * 1021 + (i 3).val
    rfl)).trans ?_
  unfold arrayFrames
  refine (shapeCast_apply X h1 _ (ix3 (⟨(i 0).val, hi0⟩ : Fin 16) (⟨(i 1).val, hi1⟩ : Fin 2)
      (⟨(i 3).val * 256 + (i 2).val, by omega⟩ : Fin 262144)) (by
    rw [Shape.rowMajor_val_three, Shape.rowMajor_val_three]
    show ((i 0).val * 2 + (i 1).val) * 262144 + ((i 3).val * 256 + (i 2).val)
      = (((i 0).val * 2 + (i 1).val) * 1024 + ((i 3).val + (i 2).val / 256)) * 256 + (i 2).val % 256
    omega)).trans ?_
  rfl

/-- The array the input window stages is the signal viewed as rows of hops (the host line before the grid). -/
theorem V_main_v0 (c : Dev nD) :
    (V m c main_v0 : S32x1024x256.Idx → Elt F .f32)
      = shapeCast S32x1024x256 (m ((c : Thread nD τ).loc main_arg0)) shapeCasts_S16x2x262144_S32x1024x256 := by
  show StableHlo.after hostOps0 (fun b => m (c, b)) (Proc.devRef .tc main_v0) = _
  after_results
  rfl

/-- The program's result after the host line that follows the grid: the output array viewed as
    (batch, channel, window position, frame). -/
theorem tail_main_v2 (c : Dev nD) :
    (Pipeline.afterTail₀ cfgs (dats m) 0 (V0 m) [hostOps1] c main_v2 : S16x2x1024x1021.Idx → Elt F .f32)
      = shapeCast S16x2x1024x1021 ((dats m 0 c).arrAt 1 cfg0.N) shapeCasts_S32x1024x1021_S16x2x1024x1021 := by
  unfold Pipeline.afterTail₀
  show StableHlo.after hostOps1 _ (Proc.devRef .tc main_v2) = _
  after_results
  have e : Pipeline.withArrays (cfgs 0).spec c (V0 m c) (fun w => (dats m 0 c).arrAt w (cfgs 0).N)
      (Proc.devRef .tc main_v1) = (dats m 0 c).arrAt 1 cfg0.N :=
    Pipeline.withArrays_arr spec0 launch0.win.arr_inj c _ _ 1
  rw [e]
  rfl

/-- THE KERNEL'S RUN: every weakly fair execution terminates with the result holding the framed signal and the signal
    unchanged. The result is read off the frame run: it is what the host line after the grid makes of the output
    array, the output array is `arrayFrames` of the staged array (`final`), and the staged array is the signal viewed as
    rows of hops. -/
theorem run : θ_run defs (onTc (τ := τ) (main (F := F))) ⟨m, fun _ => 0, ρ⟩ fun r => ∀ c : Dev nD,
      r.2.mem ((c : Thread nD τ).loc main_v2) = Cert.Framing.frames (m ((c : Thread nD τ).loc main_arg0))
      ∧ r.2.mem ((c : Thread nD τ).loc main_arg0) = m ((c : Thread nD τ).loc main_arg0) :=
  (θ_run defs _ _).mono (fun r h c =>
      ⟨((h c).2 main_v2 (Pipeline.mem_restRefs_of main_v2 (by decide) (by decide))).trans
        ((tail_main_v2 m c).trans (by rw [final, V_main_v0]; exact frames_of_views _ _ _)),
       ((h c).2 main_arg0 (Pipeline.mem_restRefs_of main_arg0 (by decide) (by decide))).trans
        (W_main_arg0 m (dats m) c)⟩)
    (run_main m ρ)

end Cert.KernelIdeal.Block

end
-- ==== Proof.LibGatherLastAxis.lean ====
/-
  Indexing the LAST axis of a rank-3 array by an integer array: `X[:, :, idx]` with `X : [A, B, N]` and
  `idx : [R, C]`. It lowers to `stablehlo.gather` over the start indices given as `[R, C, 1]`, with offset_dims
  `[0, 1]`, collapsed_slice_dims `[2]`, start_index_map `[2]`, index_vector_dim 2 and slice sizes `[A, B, 1]`; the
  result is `[A, B, R, C]`. The two leading operand axes are taken whole, so their coordinates are the result's
  first two (its offset coordinates); the last operand axis is collapsed and addressed by the start index. Hence
  result element `(a, b, r, c)` is the operand at `(a, b, k)`, where `k` is the start index `idx[r, c, 0]` read as a
  signed integer and clamped into `[0, N − 1]` (StableHLO clamps every start index so that the slice fits).
  Stated for any extents `A B N R C`, any index width and any element type.
-/
import Idealize.ShloMosaic.PureOps
import Idealize.ShloMosaic.Lib.ValueIdx

noncomputable section

namespace Idealize.ShloMosaic.GatherLastAxis

open Idealize.ShloMosaic Idealize.ShloMosaic.ValueIdx

variable {α : Type}

/-- The dimension numbers of `X[:, :, idx]` for an operand `[A, B, N]`, start indices `[R, C, 1]` and result
    `[A, B, R, C]`; their conditions `wf` are decided on a program's literal shapes. -/
abbrev lastAxisDims (A B N R C : Nat)
    (wf : GatherDims.WF ⟨3, ![A, B, N]⟩ ⟨3, ![R, C, 1]⟩ ⟨4, ![A, B, R, C]⟩ [0, 1] [2] [] [2] [] 2 ![A, B, 1]) :
    GatherDims ⟨3, ![A, B, N]⟩ ⟨3, ![R, C, 1]⟩ ⟨4, ![A, B, R, C]⟩ where
  offsetDims := [0, 1]
  collapsedSliceDims := [2]
  operandBatchingDims := []
  startIndicesBatchingDims := []
  startIndexMap := [2]
  indexVectorDim := 2
  sliceSizes := ![A, B, 1]
  wf := wf

/-- The start-indices index `[r, c, 0]` that result index `(a, b, r, c)` reads. -/
abbrev startIdx {A B R C : Nat} (y : (⟨4, ![A, B, R, C]⟩ : Shape).Idx) : (⟨3, ![R, C, 1]⟩ : Shape).Idx :=
  fun a => match a with
    | ⟨0, _⟩ => ⟨(y 2).val, (y 2).isLt⟩
    | ⟨1, _⟩ => ⟨(y 3).val, (y 3).isLt⟩
    | ⟨2, _⟩ => ⟨0, Nat.one_pos⟩

/-- Among the operand's axes that are not collapsed, `[0, 1]`, axis 0 is the first, and the result's first offset axis
    is axis 0. -/
private theorem kept_at_zero : ∀ h, ([0, 1] : List (Fin 4))[List.idxOf (0 : Fin 3)
    ((List.finRange 3).filter (· ∉ ([2] ++ [] : List (Fin 3))))]'h = 0 := by decide
/-- Axis 1 is the second, and the result's second offset axis is axis 1. -/
private theorem kept_at_one : ∀ h, ([0, 1] : List (Fin 4))[List.idxOf (1 : Fin 3)
    ((List.finRange 3).filter (· ∉ ([2] ++ [] : List (Fin 3))))]'h = 1 := by decide

/-- THE GATHER READ AT `(a, b, r, c)`: the operand at `(a, b, k)`, `k` the start index `idx[r, c, 0]` read signed and
    clamped into `[0, N − 1]`. -/
theorem gather_lastAxis_apply {A B N R C w : Nat} (hN : 0 < N)
    (wf : GatherDims.WF ⟨3, ![A, B, N]⟩ ⟨3, ![R, C, 1]⟩ ⟨4, ![A, B, R, C]⟩ [0, 1] [2] [] [2] [] 2 ![A, B, 1])
    (x : (⟨3, ![A, B, N]⟩ : Shape).Idx → α) (idx : IVec ⟨3, ![R, C, 1]⟩ w) (y : (⟨4, ![A, B, R, C]⟩ : Shape).Idx) :
    Host.gather (lastAxisDims A B N R C wf) x idx y
      = x (ix3 (⟨(y 0).val, (y 0).isLt⟩ : Fin A) (⟨(y 1).val, (y 1).isLt⟩ : Fin B)
          (⟨min (idx (startIdx y)).toInt.toNat (N - 1), by omega⟩ : Fin N)) := by
  unfold Host.gather
  congr 1
  funext a
  refine Fin.ext ?_
  match a with
  | ⟨0, _⟩ =>
    show (lastAxisDims A B N R C wf).start y idx 0 + (lastAxisDims A B N R C wf).batchCoord y 0
      + (lastAxisDims A B N R C wf).offCoord y 0 = (y 0).val
    rw [GatherDims.batchCoord_eq_zero _ _ _ List.not_mem_nil]
    unfold GatherDims.start
    rw [dif_neg (show (0 : Fin 3) ∉ ([2] : List (Fin 3)) by decide)]
    unfold GatherDims.offCoord
    rw [dif_pos ((GatherDims.mem_sKept _ _).mpr
      ⟨(show (0 : Fin 3) ∉ ([2] : List (Fin 3)) by decide), List.not_mem_nil⟩)]
    rw [Nat.zero_add]
    exact congrArg (fun k : Fin 4 => (y k).val) (kept_at_zero _)
  | ⟨1, _⟩ =>
    show (lastAxisDims A B N R C wf).start y idx 1 + (lastAxisDims A B N R C wf).batchCoord y 1
      + (lastAxisDims A B N R C wf).offCoord y 1 = (y 1).val
    rw [GatherDims.batchCoord_eq_zero _ _ _ List.not_mem_nil]
    unfold GatherDims.start
    rw [dif_neg (show (1 : Fin 3) ∉ ([2] : List (Fin 3)) by decide)]
    unfold GatherDims.offCoord
    rw [dif_pos ((GatherDims.mem_sKept _ _).mpr
      ⟨(show (1 : Fin 3) ∉ ([2] : List (Fin 3)) by decide), List.not_mem_nil⟩)]
    rw [Nat.zero_add]
    exact congrArg (fun k : Fin 4 => (y k).val) (kept_at_one _)
  | ⟨2, _⟩ =>
    show (lastAxisDims A B N R C wf).start y idx 2 + (lastAxisDims A B N R C wf).batchCoord y 2
      + (lastAxisDims A B N R C wf).offCoord y 2 = min (idx (startIdx y)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (2 : Fin 3) ∈ ([2] : List (Fin 3)) from List.mem_singleton.mpr rfl)]
    have hsi : (lastAxisDims A B N R C wf).siIdx y ⟨List.idxOf (2 : Fin 3) (lastAxisDims A B N R C wf).startIndexMap,
        List.idxOf_lt_length_iff.2 (List.mem_singleton.mpr rfl)⟩ = startIdx y := by
      funext b; refine Fin.ext ?_
      match b with
      | ⟨0, _⟩ => rfl
      | ⟨1, _⟩ => rfl
      | ⟨2, _⟩ => rfl
    rw [hsi]
    rfl

end Idealize.ShloMosaic.GatherLastAxis

end
-- ==== Proof.RefValue.lean ====
/-
  The reference is the specification: `X[:, :, idx]` with `idx[f, w] = 256 f + w`, then the two last axes swapped, is the
  framed signal.

  The reference builds the index array on the host in 32-bit integers: `f` times 256 plus `w`, at most
  `256 · 1020 + 1023 = 262143`, so nothing wraps and the word is the number `256 f + w` itself. The normalisation of
  negative indices (add the axis length where the index is below zero) leaves it alone, since it is not negative as a
  signed word. The gather then reads the start index signed — the same number — and clamps it into `[0, 262143]`, which
  leaves it alone again; and the transpose reads `(b, c, w, f)` at `(b, c, f, w)`.
-/
import proofs.«166856_j41798621724893_1_alg».proof.Proof.Gen.ReferenceIdeal.Read
import proofs.«166856_j41798621724893_1_alg».proof.Proof.LibGatherLastAxis
import proofs.«166856_j41798621724893_1_alg».proof.Proof.Framing
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.TcCoe
open Idealize.ShloMosaic.ValueIdx Idealize.ShloMosaic.GatherLastAxis

variable {F : FTy → Type} [FloatOps F]

/-! ## A number below 2³¹ as a 32-bit word -/

/-- Its word's unsigned value is the number. -/
theorem word_toNat (n : Nat) (hn : n < 2 ^ 31) : (BitVec.ofNat 32 n).toNat = n := by
  rw [BitVec.toNat_ofNat, Nat.mod_eq_of_lt (by omega)]

/-- Read signed, the word is the number. -/
theorem word_toInt (n : Nat) (hn : n < 2 ^ 31) : (BitVec.ofNat 32 n).toInt = (n : Int) := by
  rw [BitVec.toInt_eq_toNat_of_lt (by rw [word_toNat n hn]; omega), word_toNat n hn]

/-- So it is not below zero in the signed order. -/
theorem word_not_neg (n : Nat) (hn : n < 2 ^ 31) : IntOp.cmpi .slt (BitVec.ofNat 32 n) 0#32 = 0#1 := by
  have h : (BitVec.ofNat 32 n).slt 0#32 = false := by
    rw [BitVec.slt_eq_decide, word_toInt n hn, BitVec.toInt_zero]
    exact decide_eq_false (by omega)
  show BitVec.ofBool ((BitVec.ofNat 32 n).slt 0#32) = 0#1
  rw [h]
  rfl

/-! ## The index array -/

/-- The start index the reference computes for frame `f`, window position `w` is the word of `256 f + w`: the product and
    the sum are the words of the product and the sum, and the normalisation of negative indices does nothing. -/
theorem start_word (i : S1021x1024.Idx) :
    val_main_v13 (F := F) i = BitVec.ofNat 32 ((i 0).val * 256 + (i 1).val) := by
  have h0 : (i 0).val < 1021 := (i 0).isLt
  have h1 : (i 1).val < 1024 := (i 1).isLt
  have h8 : val_main_v8 (F := F) i = BitVec.ofNat 32 ((i 0).val * 256 + (i 1).val) := by
    rw [val_main_v8_apply, val_main_v6_apply, val_main_v3_apply, val_main_v1_apply, val_main_v0_apply, val_main_v2_apply,
      val_main_c_apply, val_main_v7_apply, val_main_v5_apply, val_main_v4_apply, BitVec.ofNat_add, BitVec.ofNat_mul]
    rfl
  rw [val_main_v13_apply, val_main_v10_apply, val_main_v9_apply, val_main_c_0_apply, h8, word_not_neg _ (by omega),
    select_zero]

/-! ## The result -/

/-- The printed dimension numbers are those of indexing the last axis of a rank-3 array. -/
theorem gather_dims :
    gather_S16x2x262144_S1021x1024x1_S16x2x1021x1024_01_2_n_n_2_2_1621
      = lastAxisDims 16 2 262144 1021 1024 Facts₀.gather_S16x2x262144_S1021x1024x1_S16x2x1021x1024_01_2_n_n_2_2_1621_wf := rfl

/-- THE REFERENCE'S RESULT is the framed signal. -/
theorem result_eq (X : S16x2x262144.Idx → Elt F .f32) : val_main_v16 (F := F) X = Cert.Framing.frames X := by
  funext i
  have hi2 : (i 2).val < 1024 := (i 2).isLt
  have hi3 : (i 3).val < 1021 := (i 3).isLt
  rw [val_main_v16_apply]
  unfold val_main_v15
  rw [gather_dims]
  refine (gather_lastAxis_apply (by decide) _ X (val_main_v14 (F := F)) (idx_main_v16 i)).trans ?_
  unfold Cert.Framing.frames
  congr 1; funext a; apply Fin.ext
  match a with
  | ⟨0, _⟩ => rfl
  | ⟨1, _⟩ => rfl
  | ⟨2, _⟩ =>
    show min (val_main_v14 (F := F) (startIdx (idx_main_v16 i))).toInt.toNat (262144 - 1) = (i 3).val * 256 + (i 2).val
    rw [val_main_v14_apply, start_word]
    show min (BitVec.ofNat 32 ((i 3).val * 256 + (i 2).val)).toInt.toNat (262144 - 1) = (i 3).val * 256 + (i 2).val
    rw [word_toInt _ (by omega), Int.toNat_natCast]
    omega

end Cert.ReferenceIdeal.RefValue

end
-- ==== Proof.lean ====
/-
  Strided framing of a signal by a grid kernel, against indexing by a frame-index array.

  Both programs take a signal `X : [16, 2, 262144]` to `[16, 2, 1024, 1021]`: window 1024, hop 256, 1021 frames; the
  result at `(b, c, w, f)` is sample `256 f + w` of signal `(b, c)` (`Framing.frames`). Neither does any arithmetic on
  the samples, so the two results are equal element by element whatever the samples are, and the finiteness of the
  input is never used.

  The kernel views the signal as 32 rows of 1024 hops of 256 samples, and per row transposes the hops and stores four
  shifted strips of the transpose: the strip of columns `j … j + 1020` at rows `256 j … 256 j + 255`. With
  `w = 256 j + h` the output at `(w, f)` is sample `h` of hop `f + j`, that is sample `256 f + w` (Proof/BlockValue.lean:
  the body's eight stores as one function of its block; Proof/ArrayValue.lean: the 16 blocks of two rows cover the 32 rows;
  Proof/KernelValue.lean: the two views around the grid, and the run). The reference computes the index array
  `256 f + w` in 32-bit integers, where nothing wraps and nothing is negative, indexes the time axis by it and swaps the
  two last axes (Proof/RefValue.lean, over Proof/LibGatherLastAxis.lean: indexing the last axis of a rank-3 array read at
  an index).

  The three frames: the two kernel programs' are their generated frame theorems, the reference's its run with the result
  dropped. The idealization rewrote no operation, so there is nothing to preserve.
-/
import proofs.«166856_j41798621724893_1_alg».proof.Defs
import proofs.«166856_j41798621724893_1_alg».proof.Proof.Gen.Kernel
import proofs.«166856_j41798621724893_1_alg».proof.Proof.Gen.Kernel.Skeleton
import proofs.«166856_j41798621724893_1_alg».proof.Proof.Gen.Kernel.Launch
import proofs.«166856_j41798621724893_1_alg».proof.Proof.Gen.Kernel.Points
import proofs.«166856_j41798621724893_1_alg».proof.Proof.Gen.Kernel.Frame
import proofs.«166856_j41798621724893_1_alg».proof.Proof.Gen.KernelIdeal
import proofs.«166856_j41798621724893_1_alg».proof.Proof.Gen.KernelIdeal.Skeleton
import proofs.«166856_j41798621724893_1_alg».proof.Proof.Gen.KernelIdeal.Launch
import proofs.«166856_j41798621724893_1_alg».proof.Proof.Gen.KernelIdeal.Points
import proofs.«166856_j41798621724893_1_alg».proof.Proof.Gen.KernelIdeal.Frame
import proofs.«166856_j41798621724893_1_alg».proof.Proof.Gen.ReferenceIdeal
import proofs.«166856_j41798621724893_1_alg».proof.Proof.Gen.Pre_finite_inputs
import proofs.«166856_j41798621724893_1_alg».proof.Proof.Gen.ReferenceIdeal.Run
import proofs.«166856_j41798621724893_1_alg».proof.Proof.Gen.ReferenceIdeal.Read
import proofs.«166856_j41798621724893_1_alg».proof.Proof.KernelValue
import proofs.«166856_j41798621724893_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves the signal unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves the signal unchanged: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From signals that agree, the kernel's result and the reference's are both the framed signal. -/
theorem algebraic : Cert.algebraic_KernelIdeal_ReferenceIdeal := by
  intro m ρ m' ρ' _ hagree
  refine ⟨fun c => Cert.Framing.frames (m ((c.tc : Thread Cert.KernelIdeal.nD Cert.KernelIdeal.τ).loc Cert.KernelIdeal.main_arg0)),
    Cert.KernelIdeal.Block.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.ReferenceIdeal.RefValue.result_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
